-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_768" .f32 0x3AAAAAAB#32 ((1 / 768 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S768x64 : Shape := ⟨2, ![768, 64]⟩
abbrev S64 : Shape := ⟨1, ![64]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S768x64 .f32) (main_arg6 : FVec F S64 .f32) (main_v13 : IVec S_ 1) (main_v16 : IVec S768x64 1) : IVec S_ 1 :=
  let main_c_5 : IVec S_ 1 := constantI S_ 1 1#1
  let main_v17 : IVec S_ 1 := (fun x v => Host.reduce IntOp.andi x v reducesTo_S768x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S768x64 .f32 := Host.absf main_arg5
  let main_cst_8 : FVec F S_ .f32 := constant S_ .f32 0x7F800000#32
  let main_v25 : FVec F S768x64 .f32 := broadcastInDim S768x64 ![] bcast_S_S768x64 main_cst_8
  let main_v26 : IVec S768x64 1 := cmpf .olt main_v24 main_v25
  let main_c_9 : IVec S_ 1 := constantI S_ 1 1#1
  let main_v27 : IVec S_ 1 := (fun x v => Host.reduce IntOp.andi x v reducesTo_S768x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S32x1024x768 .f32) (main_arg1 : FVec F S768x64 .f32) (main_arg2 : FVec F S64 .f32) (main_arg3 : FVec F S768x64 .f32) (main_arg4 : FVec F S64 .f32) (main_arg5 : FVec F S768x64 .f32) (main_arg6 : FVec F S64 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S768x64 .f32 := Host.absf main_arg1
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S768x64 .f32 := Host.absf main_arg3
  let main_cst_4 : FVec F S_ .f32 := constant S_ .f32 0x7F800000#32
  let main_v15 : FVec F S768x64 .f32 := broadcastInDim S768x64 ![] bcast_S_S768x64 main_cst_4
  let main_v16 : IVec S768x64 1 := cmpf .olt main_v14 main_v15
  fn_part1 (F := F) main_arg4 main_arg5 main_arg6 main_v13 main_v16
-- ==== Kernel.lean ====
abbrev S32x1024x768 : Shape := ⟨3, ![32, 1024, 768]⟩
abbrev S768x64 : Shape := ⟨2, ![768, 64]⟩
abbrev S64 : Shape := ⟨1, ![64]⟩
abbrev S768x192 : Shape := ⟨2, ![768, 192]⟩
abbrev S192 : Shape := ⟨1, ![192]⟩
abbrev S1x192 : Shape := ⟨2, ![1, 192]⟩
abbrev S32x1024x64 : Shape := ⟨3, ![32, 1024, 64]⟩
abbrev S1x1024x768 : Shape := ⟨3, ![1, 1024, 768]⟩
abbrev S1x1024x64 : Shape := ⟨3, ![1, 1024, 64]⟩
abbrev S1024x768 : Shape := ⟨2, ![1024, 768]⟩
abbrev S1024x192 : Shape := ⟨2, ![1024, 192]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 6
  | .smem => 0
  | _ => 0

abbrev bufTy : (tb : Table) → Fin (tcTables nBuf tb) → BufTy
  | .hbm, ⟨0, _⟩ => ⟨S32x1024x768, .f32⟩
  | .hbm, ⟨1, _⟩ => ⟨S768x64, .f32⟩
  | .hbm, ⟨2, _⟩ => ⟨S64, .f32⟩
  | .hbm, ⟨3, _⟩ => ⟨S768x64, .f32⟩
  | .hbm, ⟨4, _⟩ => ⟨S64, .f32⟩
  | .hbm, ⟨5, _⟩ => ⟨S768x64, .f32⟩
  | .hbm, ⟨6, _⟩ => ⟨S64, .f32⟩
  | .hbm, ⟨7, _⟩ => ⟨S768x192, .f32⟩
  | .hbm, ⟨8, _⟩ => ⟨S192, .f32⟩
  | .hbm, ⟨9, _⟩ => ⟨S1x192, .f32⟩
  | .hbm, ⟨10, _⟩ => ⟨S32x1024x64, .f32⟩
  | .local _ .vmem, ⟨0, _⟩ => ⟨S1x1024x768, .f32⟩
  | .local _ .vmem, ⟨1, _⟩ => ⟨S1x1024x768, .f32⟩
  | .local _ .vmem, ⟨2, _⟩ => ⟨S768x192, .f32⟩
  | .local _ .vmem, ⟨3, _⟩ => ⟨S1x192, .f32⟩
  | .local _ .vmem, ⟨4, _⟩ => ⟨S1x1024x64, .f32⟩
  | .local _ .vmem, ⟨5, _⟩ => ⟨S1x1024x64, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S768x64_S768x64_S768x64_S768x192_d1 : Shape.Concatenates [S768x64, S768x64, S768x64] S768x192 1
  concatenates_S64_S64_S64_S192_d0 : Shape.Concatenates [S64, S64, S64] S192 0
  shapeCasts_S192_S1x192 : S192.ShapeCasts S1x192
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S768x192_S768x192_0_0 : ∀ a, (![0, 0] : Fin 2 → Nat) a + S768x192.size a ≤ S768x192.size a
  h_S768x192 : 0 < S768x192.numel
  shapeCasts_S768x192_S768x192 : S768x192.ShapeCasts S768x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S1024x192 : S1x192.Broadcasts S1024x192
  slices_S1024x192_o0_0_S1024x64 : S1024x192.Slices ![0, 0] S1024x64
  slices_S1024x192_o0_64_S1024x64 : S1024x192.Slices ![0, 64] S1024x64
  slices_S1024x192_o0_128_S1024x64 : S1024x192.Slices ![0, 128] S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x768_S768x192_S1024x192_1_0_0_1_n_n_wf : DotDims.WF S1024x768 S768x192 S1024x192 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x1024x768.size a
  hwx0_0 : ∀ i : grid0.Coords, EltTy.bits .f32 = 32 ∨ (Rect.block (s := S32x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x192.size a ≤ S768x192.size a
  hwx0_1 : ∀ i : grid0.Coords, EltTy.bits .f32 = 32 ∨ (Rect.block (s := S768x192) S768x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x1024x64.size a
  hwx0_3 : ∀ i : grid0.Coords, EltTy.bits .f32 = 32 ∨ (Rect.block (s := S32x1024x64) S1x1024x64.size (cc0_transform_3 i) (hinb0_3 i)).WholeWords (EltTy.packing .f32)

variable [Facts₀]

def dot_S1024x768_S768x192_S1024x192_1_0_0_1_n_n : DotDims S1024x768 S768x192 S1024x192 where
  lhsContracting := [1]
  rhsContracting := [0]
  lhsNonContracting := [0]
  rhsNonContracting := [1]
  lhsBatch := []
  rhsBatch := []
  wf := dot_S1024x768_S768x192_S1024x192_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x768 : Shape := ⟨3, ![32, 1024, 768]⟩
abbrev S768x64 : Shape := ⟨2, ![768, 64]⟩
abbrev S64 : Shape := ⟨1, ![64]⟩
abbrev S32x1024x64 : Shape := ⟨3, ![32, 1024, 64]⟩
abbrev S1x1x64 : Shape := ⟨3, ![1, 1, 64]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 38
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S768x64, .f32⟩
  | .hbm, ⟨2, _⟩ => ⟨S64, .f32⟩
  | .hbm, ⟨3, _⟩ => ⟨S768x64, .f32⟩
  | .hbm, ⟨4, _⟩ => ⟨S64, .f32⟩
  | .hbm, ⟨5, _⟩ => ⟨S768x64, .f32⟩
  | .hbm, ⟨6, _⟩ => ⟨S64, .f32⟩
  | .hbm, ⟨7, _⟩ => ⟨S32x1024x64, .f32⟩
  | .hbm, ⟨8, _⟩ => ⟨S1x1x64, .f32⟩
  | .hbm, ⟨9, _⟩ => ⟨S32x1024x64, .f32⟩
  | .hbm, ⟨10, _⟩ => ⟨S32x1024x64, .f32⟩
  | .hbm, ⟨11, _⟩ => ⟨S32x1024x64, .f32⟩
  | .hbm, ⟨12, _⟩ => ⟨S1x1x64, .f32⟩
  | .hbm, ⟨13, _⟩ => ⟨S32x1024x64, .f32⟩
  | .hbm, ⟨14, _⟩ => ⟨S32x1024x64, .f32⟩
  | .hbm, ⟨15, _⟩ => ⟨S32x1024x64, .f32⟩
  | .hbm, ⟨16, _⟩ => ⟨S1x1x64, .f32⟩
  | .hbm, ⟨17, _⟩ => ⟨S32x1024x64, .f32⟩
  | .hbm, ⟨18, _⟩ => ⟨S32x1024x64, .f32⟩
  | .hbm, ⟨19, _⟩ => ⟨S32x1024x1024, .f32⟩
  | .hbm, ⟨20, _⟩ => ⟨S_, .f32⟩
  | .hbm, ⟨21, _⟩ => ⟨S32x1024x1024, .f32⟩
  | .hbm, ⟨22, _⟩ => ⟨S32x1024x1024, .f32⟩
  | .hbm, ⟨23, _⟩ => ⟨S_, .f32⟩
  | .hbm, ⟨24, _⟩ => ⟨S32x1024, .f32⟩
  | .hbm, ⟨25, _⟩ => ⟨S_, .f32⟩
  | .hbm, ⟨26, _⟩ => ⟨S32x1024, .f32⟩
  | .hbm, ⟨27, _⟩ => ⟨S32x1024, .f32⟩
  | .hbm, ⟨28, _⟩ => ⟨S32x1024x1, .f32⟩
  | .hbm, ⟨29, _⟩ => ⟨S32x1024x1024, .f32⟩
  | .hbm, ⟨30, _⟩ => ⟨S32x1024x1024, .f32⟩
  | .hbm, ⟨31, _⟩ => ⟨S32x1024x1024, .f32⟩
  | .hbm, ⟨32, _⟩ => ⟨S_, .f32⟩
  | .hbm, ⟨33, _⟩ => ⟨S32x1024, .f32⟩
  | .hbm, ⟨34, _⟩ => ⟨S32x1024x1, .f32⟩
  | .hbm, ⟨35, _⟩ => ⟨S32x1024x1024, .f32⟩
  | .hbm, ⟨36, _⟩ => ⟨S32x1024x1024, .f32⟩
  | .hbm, ⟨37, _⟩ => ⟨S32x1024x64, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S32x1024x64_0_1_2 : S1x1x64.BroadcastsInDim S32x1024x64 (![0, 1, 2] : Fin 3 → Fin S32x1024x64.rank)
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x768_S768x64_S32x1024x64_2_0_01_1_n_n_wf : DotDims.WF S32x1024x768 S768x64 S32x1024x64 [2] [0] [0, 1] [1] [] []
  dot_S32x1024x64_S32x1024x64_S32x1024x1024_2_2_1_1_0_0_wf : DotDims.WF S32x1024x64 S32x1024x64 S32x1024x1024 [2] [2] [1] [1] [0] [0]
  dot_S32x1024x1024_S32x1024x64_S32x1024x64_2_1_1_2_0_0_wf : DotDims.WF S32x1024x1024 S32x1024x64 S32x1024x64 [2] [1] [1] [2] [0] [0]

variable [Facts₀]

def dot_S32x1024x768_S768x64_S32x1024x64_2_0_01_1_n_n : DotDims S32x1024x768 S768x64 S32x1024x64 where
  lhsContracting := [2]
  rhsContracting := [0]
  lhsNonContracting := [0, 1]
  rhsNonContracting := [1]
  lhsBatch := []
  rhsBatch := []
  wf := dot_S32x1024x768_S768x64_S32x1024x64_2_0_01_1_n_n_wf
def dot_S32x1024x64_S32x1024x64_S32x1024x1024_2_2_1_1_0_0 : DotDims S32x1024x64 S32x1024x64 S32x1024x1024 where
  lhsContracting := [2]
  rhsContracting := [2]
  lhsNonContracting := [1]
  rhsNonContracting := [1]
  lhsBatch := [0]
  rhsBatch := [0]
  wf := dot_S32x1024x64_S32x1024x64_S32x1024x1024_2_2_1_1_0_0_wf
def dot_S32x1024x1024_S32x1024x64_S32x1024x64_2_1_1_2_0_0 : DotDims S32x1024x1024 S32x1024x64 S32x1024x64 where
  lhsContracting := [2]
  rhsContracting := [1]
  lhsNonContracting := [1]
  rhsNonContracting := [2]
  lhsBatch := [0]
  rhsBatch := [0]
  wf := dot_S32x1024x1024_S32x1024x64_S32x1024x64_2_1_1_2_0_0_wf

class Facts : Prop extends Facts₀ where

variable [Facts]
-- ==== Proof.RegionBits.lean ====
/-
  The attention kernel's launch, at any float instance: how @main reaches its one region, what the region finds in
  each array, and what it leaves there.

  @main first lays the three projection matrices side by side (one 768 x 192 matrix) and the three biases end to end
  (one row of 192), then launches the kernel on a grid of 32 points, one batch row per point. At point t the body is
  handed row t of the input (a 1 x 1024 x 768 block), the whole fused matrix and the whole bias row, and writes one
  1 x 1024 x 64 block of the result. The fused matrix and the bias row are fetched once, at the first point, and stay
  in place afterwards; the input row is fetched at every point; the result block is written back at every point.

  Here: the host lines before the region touch none of the seven arguments; each input's staging buffer holds that
  input's block at every point; the body, run on whole buffers, leaves the inputs alone and the output buffer holding
  its one store; hence the launch runs to the end with every array at what these data say, and the arguments end as
  they began.
-/
import proofs.«169789_j73899207295044_2_alg».proof.Proof.Gen.Kernel.Launch
import proofs.«169789_j73899207295044_2_alg».proof.Proof.Gen.Kernel.Skeleton
import proofs.«169789_j73899207295044_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## From @main's first line to the region -/

/-- What core c's buffers hold when the region is entered: the launch contents after the three host lines (the fused
    matrix, the fused bias, the bias as a row). -/
abbrev atEntry (c : Dev nD) (b : Ref sig .tc) : Buf (Elt F) ((c : Thread nD τ).loc b) :=
  StableHlo.after hostOps0 (fun b => m (c, b)) b

/-- The three host lines allocate nothing. -/
theorem prefix_allocates_nothing : (hostOps0 : List (HloOp τ sig (Elt F))).Forall fun op => op.fresh = ∅ := by
  simp only [List.Forall]; repeat' constructor

/-- @main is its three host lines followed by the region. -/
theorem main_reaches_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- A buffer none of the three host lines writes is found as launched. The lines write the fused matrix, the fused
    bias and the bias row only. -/
theorem untouched (c : Dev nD) (b : Ref sig .tc)
    (h0 : b ≠ main_v0) (h1 : b ≠ main_v1) (h2 : b ≠ main_v2) :
    atEntry m c b = m ((c : Thread nD τ).loc b) :=
  StableHlo.after_of_forall_not_mem (b := Proc.devRef .tc b) _ _ (List.forall_iff_forall_mem.mp (by
    simp only [hostOps0, List.Forall, StableHlo.nary_writes, StableHlo.reshape_writes, Finset.mem_singleton]
    exact ⟨StableHlo.devRef_ne_of_ne h0, StableHlo.devRef_ne_of_ne h1, StableHlo.devRef_ne_of_ne h2⟩))

theorem entry_arg0 (c : Dev nD) : atEntry m c main_arg0 = m ((c : Thread nD τ).loc main_arg0) :=
  untouched m c _ (by decide) (by decide) (by decide)
theorem entry_arg1 (c : Dev nD) : atEntry m c main_arg1 = m ((c : Thread nD τ).loc main_arg1) :=
  untouched m c _ (by decide) (by decide) (by decide)
theorem entry_arg2 (c : Dev nD) : atEntry m c main_arg2 = m ((c : Thread nD τ).loc main_arg2) :=
  untouched m c _ (by decide) (by decide) (by decide)
theorem entry_arg3 (c : Dev nD) : atEntry m c main_arg3 = m ((c : Thread nD τ).loc main_arg3) :=
  untouched m c _ (by decide) (by decide) (by decide)
theorem entry_arg4 (c : Dev nD) : atEntry m c main_arg4 = m ((c : Thread nD τ).loc main_arg4) :=
  untouched m c _ (by decide) (by decide) (by decide)
theorem entry_arg5 (c : Dev nD) : atEntry m c main_arg5 = m ((c : Thread nD τ).loc main_arg5) :=
  untouched m c _ (by decide) (by decide) (by decide)
theorem entry_arg6 (c : Dev nD) : atEntry m c main_arg6 = m ((c : Thread nD τ).loc main_arg6) :=
  untouched m c _ (by decide) (by decide) (by decide)

/-! ## The blocks -/

/-- Window w's block at point t, cut from its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The input row's buffer holds row t at point t (it is fetched at every point). -/
theorem row_in_place {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The fused matrix's buffer holds the matrix at every point: fetched at the first, and its block never moves. -/
theorem matrix_in_place {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias row's buffer holds the bias row at every point, for the same reason. -/
theorem bias_in_place {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body on whole buffers -/

/-- The four whole-buffer rectangles the body reads and writes through. -/
abbrev allOfRow : Rect S1x1024x768 := Rect.unit (s := S1x1024x768) ![0, 0, 0] S1x1024x768.size Facts₀.inb_S1x1024x768_S1x1024x768_0_0_0
abbrev allOfMatrix : Rect S768x192 := Rect.unit (s := S768x192) ![0, 0] S768x192.size Facts₀.inb_S768x192_S768x192_0_0
abbrev allOfBias : Rect S1x192 := Rect.unit (s := S1x192) ![0, 0] S1x192.size Facts₀.inb_S1x192_S1x192_0_0
abbrev allOfOut : Rect S1x1024x64 := Rect.unit (s := S1x1024x64) ![0, 0, 0] S1x1024x64.size Facts₀.inb_S1x1024x64_S1x1024x64_0_0_0

/-- What the output buffer holds after the body: its single store, the attention of the row against the fused
    matrix and bias, laid over the whole buffer. -/
def written (x : Vec F S1x1024x768 .f32) (w : Vec F S768x192 .f32) (b : Vec F S1x192 .f32) : Vec F S1x1024x64 .f32 :=
  View.canon [⟨allOfOut, k0_pay1 (View.ld x allOfRow) (View.ld w allOfMatrix) (View.ld b allOfBias)⟩]

/-- The one store covers the buffer. -/
theorem store_covers (p : Vec F S1x1024x64 .f32) (y : S1x1024x64.Idx) :
    ∃ pc ∈ ([⟨allOfOut, p⟩] : List (View.Piece (Elt F) S1x1024x64 .f32)), y ∈ pc.1.set :=
  View.cover_of_tiled [⟨allOfOut, p⟩] S1x1024x64.size (by rfl) y

set_option maxHeartbeats 1000000 in
/-- The body, given the three input buffers at known contents and the output buffer at any contents, returns the
    inputs as they were and the output at the store. (It also loads the output buffer before storing; the loaded
    value is used by nothing.) -/
theorem body_runs (c : Dev nD) (E : Set ℕ) (i : grid0.Coords)
    (arg1 : Memref sig .tc .vmem S1x1024x768 .f32) (harg1 : arg1.IsWhole)
    (arg2 : Memref sig .tc .vmem S768x192 .f32) (harg2 : arg2.IsWhole)
    (arg3 : Memref sig .tc .vmem S1x192 .f32) (harg3 : arg3.IsWhole)
    (arg4 : Memref sig .tc .vmem S1x1024x64 .f32) (harg4 : arg4.IsWhole)
    (x : Vec F S1x1024x768 .f32) (w : Vec F S768x192 .f32) (b : Vec F S1x192 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (written x w b)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The launch's data -/

/-- Core c's data for the launch: each array as the region finds it; after the body at point t, each input buffer at
    its block and the output buffer at the store over the three blocks; nothing else held, nothing owed. -/
def launchData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => written (blockAt m c 0 t) (blockAt m c 1 t) (blockAt m c 2 t)
  Φ _ := Pipeline.ΦA spec0 c
  q _ := fullShare
  owed _ := 0

theorem arrays_at_entry (c : Dev nD) (w : Fin cfg0.W) : (launchData m 0 c).A w = atEntry m c (Pipeline.arrRef spec0 w) := by
  dsimp only [launchData]

theorem left_row (c : Dev nD) (t : Fin cfg0.N) : (launchData m 0 c).after 0 t = blockAt m c 0 t := by dsimp only [launchData]
theorem left_matrix (c : Dev nD) (t : Fin cfg0.N) : (launchData m 0 c).after 1 t = blockAt m c 1 t := by dsimp only [launchData]
theorem left_bias (c : Dev nD) (t : Fin cfg0.N) : (launchData m 0 c).after 2 t = blockAt m c 2 t := by dsimp only [launchData]
theorem left_out (c : Dev nD) (t : Fin cfg0.N) :
    (launchData m 0 c).after 3 t = written (blockAt m c 0 t) (blockAt m c 1 t) (blockAt m c 2 t) := by dsimp only [launchData]

theorem found_row (c : Dev nD) (t : Fin cfg0.N) (d) : (launchData m 0 c).before 0 t d = blockAt m c 0 t :=
  row_in_place m (launchData m 0 c) (arrays_at_entry m c 0) (left_row m c) t d
theorem found_matrix (c : Dev nD) (t : Fin cfg0.N) (d) : (launchData m 0 c).before 1 t d = blockAt m c 1 t :=
  matrix_in_place m (launchData m 0 c) (arrays_at_entry m c 1) (left_matrix m c) t d
theorem found_bias (c : Dev nD) (t : Fin cfg0.N) (d) : (launchData m 0 c).before 2 t d = blockAt m c 2 t :=
  bias_in_place m (launchData m 0 c) (arrays_at_entry m c 2) (left_bias m c) t d

/-! ## The body at a point of the grid -/

/-- What the launch hands the body at point t, -/
def handed (c : Dev nD) (t : Fin cfg0.N) : sProp 𝕄 :=
  iprop((launchData m 0 c).Φ t.castSucc ∗ (launchData m 0 c).owesAt () t.castSucc
    ∗ (∃ d, owns (c : Thread nD τ) (st0_0 t) fullShare ((launchData m 0 c).before 0 t d))
    ∗ (∃ d, owns (c : Thread nD τ) (st0_1 t) fullShare ((launchData m 0 c).before 1 t d))
    ∗ (∃ d, owns (c : Thread nD τ) (st0_2 t) fullShare ((launchData m 0 c).before 2 t d))
    ∗ (∃ d, owns (c : Thread nD τ) (st0_3 t) fullShare ((launchData m 0 c).before 3 t d)))

/-- and what the body hands back. -/
def returned (c : Dev nD) (t : Fin cfg0.N) : sProp 𝕄 :=
  iprop((launchData m 0 c).Φ t.succ ∗ (launchData m 0 c).owesAt () t.succ
    ∗ owns (c : Thread nD τ) (st0_0 t) fullShare ((launchData m 0 c).after 0 t)
    ∗ owns (c : Thread nD τ) (st0_1 t) fullShare ((launchData m 0 c).after 1 t)
    ∗ owns (c : Thread nD τ) (st0_2 t) fullShare ((launchData m 0 c).after 2 t)
    ∗ owns (c : Thread nD τ) (st0_3 t) fullShare ((launchData m 0 c).after 3 t))

theorem body_at_point (c : Dev nD) (t : Fin cfg0.N) :
    handed m c t ⊢ wp frame (wpE (defs₀ (F := F)) Variants.none c none) Set.univ (bodyAt0 t) (fun _ => returned m c t) := by
  unfold handed returned bodyAt0
  simp only [found_row, found_matrix, found_bias]
  rw [show (launchData m 0 c).Φ t.succ = (launchData m 0 c).Φ t.castSucc from rfl,
    show (launchData m 0 c).owesAt () t.succ = (launchData m 0 c).owesAt () t.castSucc from rfl,
    left_row, left_matrix, left_bias, left_out]
  iintro ⟨HΦ, Ho, ⟨%d0, H0⟩, ⟨%d1, H1⟩, ⟨%d2, H2⟩, ⟨%d3, H3⟩⟩
  iapply (body_runs c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_everywhere (c : Dev nD) : BodyObligation (launchData (F := F) m 0 c) (defs₀ (F := F)) Variants.none () Set.univ := fun t => by
  rw [bigSep_W0, bigSep_W0]
  exact body_at_point m c t

/-! ## The run -/

set_option backward.isDefEq.respectTransparency.types false in
/-- From any memory with zero counters every weakly fair execution of @main terminates without a fault; at the end
    each of the four arrays holds what the launch's data say, and every other buffer that outlives the region what the
    region found in it. -/
theorem run : θ_run defs (onTc (τ := τ) (main (F := F))) (s₀ m ρ) (Pipeline.FramePost cfgs (launchData m) 0 (atEntry m)) :=
  Pipeline.θ_run_frame cfgs (launchData m) (0 : Fin 1) launch0 defs₀ Variants.none m ρ main
    (hbody := fun c => (body_everywhere m c).loose) (hshare := fun c => (launchData m 0 c).share_full fun _ => rfl)
    (howed := fun _ _ => rfl) (V := atEntry m) (hmain := main_reaches_region m Variants.none) (hA := arrays_at_entry m) (hΦ := fun _ _ => rfl)

/-- The seven arguments end as they began: the input is a fetched array, which the launch returns as found; the six
    weights and biases are staged by no window, and the host lines before the region write none of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((launchData m 0 c).arrAt_in 0 rfl _).trans ((arrays_at_entry m c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c)⟩) (run m ρ)

end Cert.Kernel.Region

end
-- ==== Proof.RegionIdeal.lean ====
/-
  The attention kernel's launch, at any float instance: how @main reaches its one region, what the region finds in
  each array, and what it leaves there.

  @main first lays the three projection matrices side by side (one 768 x 192 matrix) and the three biases end to end
  (one row of 192), then launches the kernel on a grid of 32 points, one batch row per point. At point t the body is
  handed row t of the input (a 1 x 1024 x 768 block), the whole fused matrix and the whole bias row, and writes one
  1 x 1024 x 64 block of the result. The fused matrix and the bias row are fetched once, at the first point, and stay
  in place afterwards; the input row is fetched at every point; the result block is written back at every point.

  Here: the host lines before the region touch none of the seven arguments; each input's staging buffer holds that
  input's block at every point; the body, run on whole buffers, leaves the inputs alone and the output buffer holding
  its one store; hence the launch runs to the end with every array at what these data say, and the arguments end as
  they began.
-/
import proofs.«169789_j73899207295044_2_alg».proof.Proof.Gen.KernelIdeal.Launch
import proofs.«169789_j73899207295044_2_alg».proof.Proof.Gen.KernelIdeal.Skeleton
import proofs.«169789_j73899207295044_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## From @main's first line to the region -/

/-- What core c's buffers hold when the region is entered: the launch contents after the three host lines (the fused
    matrix, the fused bias, the bias as a row). -/
abbrev atEntry (c : Dev nD) (b : Ref sig .tc) : Buf (Elt F) ((c : Thread nD τ).loc b) :=
  StableHlo.after hostOps0 (fun b => m (c, b)) b

/-- The three host lines allocate nothing. -/
theorem prefix_allocates_nothing : (hostOps0 : List (HloOp τ sig (Elt F))).Forall fun op => op.fresh = ∅ := by
  simp only [List.Forall]; repeat' constructor

/-- @main is its three host lines followed by the region. -/
theorem main_reaches_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- A buffer none of the three host lines writes is found as launched. The lines write the fused matrix, the fused
    bias and the bias row only. -/
theorem untouched (c : Dev nD) (b : Ref sig .tc)
    (h0 : b ≠ main_v0) (h1 : b ≠ main_v1) (h2 : b ≠ main_v2) :
    atEntry m c b = m ((c : Thread nD τ).loc b) :=
  StableHlo.after_of_forall_not_mem (b := Proc.devRef .tc b) _ _ (List.forall_iff_forall_mem.mp (by
    simp only [hostOps0, List.Forall, StableHlo.nary_writes, StableHlo.reshape_writes, Finset.mem_singleton]
    exact ⟨StableHlo.devRef_ne_of_ne h0, StableHlo.devRef_ne_of_ne h1, StableHlo.devRef_ne_of_ne h2⟩))

theorem entry_arg0 (c : Dev nD) : atEntry m c main_arg0 = m ((c : Thread nD τ).loc main_arg0) :=
  untouched m c _ (by decide) (by decide) (by decide)
theorem entry_arg1 (c : Dev nD) : atEntry m c main_arg1 = m ((c : Thread nD τ).loc main_arg1) :=
  untouched m c _ (by decide) (by decide) (by decide)
theorem entry_arg2 (c : Dev nD) : atEntry m c main_arg2 = m ((c : Thread nD τ).loc main_arg2) :=
  untouched m c _ (by decide) (by decide) (by decide)
theorem entry_arg3 (c : Dev nD) : atEntry m c main_arg3 = m ((c : Thread nD τ).loc main_arg3) :=
  untouched m c _ (by decide) (by decide) (by decide)
theorem entry_arg4 (c : Dev nD) : atEntry m c main_arg4 = m ((c : Thread nD τ).loc main_arg4) :=
  untouched m c _ (by decide) (by decide) (by decide)
theorem entry_arg5 (c : Dev nD) : atEntry m c main_arg5 = m ((c : Thread nD τ).loc main_arg5) :=
  untouched m c _ (by decide) (by decide) (by decide)
theorem entry_arg6 (c : Dev nD) : atEntry m c main_arg6 = m ((c : Thread nD τ).loc main_arg6) :=
  untouched m c _ (by decide) (by decide) (by decide)

/-! ## The blocks -/

/-- Window w's block at point t, cut from its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The input row's buffer holds row t at point t (it is fetched at every point). -/
theorem row_in_place {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The fused matrix's buffer holds the matrix at every point: fetched at the first, and its block never moves. -/
theorem matrix_in_place {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias row's buffer holds the bias row at every point, for the same reason. -/
theorem bias_in_place {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body on whole buffers -/

/-- The four whole-buffer rectangles the body reads and writes through. -/
abbrev allOfRow : Rect S1x1024x768 := Rect.unit (s := S1x1024x768) ![0, 0, 0] S1x1024x768.size Facts₀.inb_S1x1024x768_S1x1024x768_0_0_0
abbrev allOfMatrix : Rect S768x192 := Rect.unit (s := S768x192) ![0, 0] S768x192.size Facts₀.inb_S768x192_S768x192_0_0
abbrev allOfBias : Rect S1x192 := Rect.unit (s := S1x192) ![0, 0] S1x192.size Facts₀.inb_S1x192_S1x192_0_0
abbrev allOfOut : Rect S1x1024x64 := Rect.unit (s := S1x1024x64) ![0, 0, 0] S1x1024x64.size Facts₀.inb_S1x1024x64_S1x1024x64_0_0_0

/-- What the output buffer holds after the body: its single store, the attention of the row against the fused
    matrix and bias, laid over the whole buffer. -/
def written (x : Vec F S1x1024x768 .f32) (w : Vec F S768x192 .f32) (b : Vec F S1x192 .f32) : Vec F S1x1024x64 .f32 :=
  View.canon [⟨allOfOut, k0_pay1 (View.ld x allOfRow) (View.ld w allOfMatrix) (View.ld b allOfBias)⟩]

/-- The one store covers the buffer. -/
theorem store_covers (p : Vec F S1x1024x64 .f32) (y : S1x1024x64.Idx) :
    ∃ pc ∈ ([⟨allOfOut, p⟩] : List (View.Piece (Elt F) S1x1024x64 .f32)), y ∈ pc.1.set :=
  View.cover_of_tiled [⟨allOfOut, p⟩] S1x1024x64.size (by rfl) y

set_option maxHeartbeats 1000000 in
/-- The body, given the three input buffers at known contents and the output buffer at any contents, returns the
    inputs as they were and the output at the store. (It also loads the output buffer before storing; the loaded
    value is used by nothing.) -/
theorem body_runs (c : Dev nD) (E : Set ℕ) (i : grid0.Coords)
    (arg1 : Memref sig .tc .vmem S1x1024x768 .f32) (harg1 : arg1.IsWhole)
    (arg2 : Memref sig .tc .vmem S768x192 .f32) (harg2 : arg2.IsWhole)
    (arg3 : Memref sig .tc .vmem S1x192 .f32) (harg3 : arg3.IsWhole)
    (arg4 : Memref sig .tc .vmem S1x1024x64 .f32) (harg4 : arg4.IsWhole)
    (x : Vec F S1x1024x768 .f32) (w : Vec F S768x192 .f32) (b : Vec F S1x192 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (written x w b)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

/-! ## The launch's data -/

/-- Core c's data for the launch: each array as the region finds it; after the body at point t, each input buffer at
    its block and the output buffer at the store over the three blocks; nothing else held, nothing owed. -/
def launchData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => written (blockAt m c 0 t) (blockAt m c 1 t) (blockAt m c 2 t)
  Φ _ := Pipeline.ΦA spec0 c
  q _ := fullShare
  owed _ := 0

theorem arrays_at_entry (c : Dev nD) (w : Fin cfg0.W) : (launchData m 0 c).A w = atEntry m c (Pipeline.arrRef spec0 w) := by
  dsimp only [launchData]

theorem left_row (c : Dev nD) (t : Fin cfg0.N) : (launchData m 0 c).after 0 t = blockAt m c 0 t := by dsimp only [launchData]
theorem left_matrix (c : Dev nD) (t : Fin cfg0.N) : (launchData m 0 c).after 1 t = blockAt m c 1 t := by dsimp only [launchData]
theorem left_bias (c : Dev nD) (t : Fin cfg0.N) : (launchData m 0 c).after 2 t = blockAt m c 2 t := by dsimp only [launchData]
theorem left_out (c : Dev nD) (t : Fin cfg0.N) :
    (launchData m 0 c).after 3 t = written (blockAt m c 0 t) (blockAt m c 1 t) (blockAt m c 2 t) := by dsimp only [launchData]

theorem found_row (c : Dev nD) (t : Fin cfg0.N) (d) : (launchData m 0 c).before 0 t d = blockAt m c 0 t :=
  row_in_place m (launchData m 0 c) (arrays_at_entry m c 0) (left_row m c) t d
theorem found_matrix (c : Dev nD) (t : Fin cfg0.N) (d) : (launchData m 0 c).before 1 t d = blockAt m c 1 t :=
  matrix_in_place m (launchData m 0 c) (arrays_at_entry m c 1) (left_matrix m c) t d
theorem found_bias (c : Dev nD) (t : Fin cfg0.N) (d) : (launchData m 0 c).before 2 t d = blockAt m c 2 t :=
  bias_in_place m (launchData m 0 c) (arrays_at_entry m c 2) (left_bias m c) t d

/-! ## The body at a point of the grid -/

/-- What the launch hands the body at point t, -/
def handed (c : Dev nD) (t : Fin cfg0.N) : sProp 𝕄 :=
  iprop((launchData m 0 c).Φ t.castSucc ∗ (launchData m 0 c).owesAt () t.castSucc
    ∗ (∃ d, owns (c : Thread nD τ) (st0_0 t) fullShare ((launchData m 0 c).before 0 t d))
    ∗ (∃ d, owns (c : Thread nD τ) (st0_1 t) fullShare ((launchData m 0 c).before 1 t d))
    ∗ (∃ d, owns (c : Thread nD τ) (st0_2 t) fullShare ((launchData m 0 c).before 2 t d))
    ∗ (∃ d, owns (c : Thread nD τ) (st0_3 t) fullShare ((launchData m 0 c).before 3 t d)))

/-- and what the body hands back. -/
def returned (c : Dev nD) (t : Fin cfg0.N) : sProp 𝕄 :=
  iprop((launchData m 0 c).Φ t.succ ∗ (launchData m 0 c).owesAt () t.succ
    ∗ owns (c : Thread nD τ) (st0_0 t) fullShare ((launchData m 0 c).after 0 t)
    ∗ owns (c : Thread nD τ) (st0_1 t) fullShare ((launchData m 0 c).after 1 t)
    ∗ owns (c : Thread nD τ) (st0_2 t) fullShare ((launchData m 0 c).after 2 t)
    ∗ owns (c : Thread nD τ) (st0_3 t) fullShare ((launchData m 0 c).after 3 t))

theorem body_at_point (c : Dev nD) (t : Fin cfg0.N) :
    handed m c t ⊢ wp frame (wpE (defs₀ (F := F)) Variants.none c none) Set.univ (bodyAt0 t) (fun _ => returned m c t) := by
  unfold handed returned bodyAt0
  simp only [found_row, found_matrix, found_bias]
  rw [show (launchData m 0 c).Φ t.succ = (launchData m 0 c).Φ t.castSucc from rfl,
    show (launchData m 0 c).owesAt () t.succ = (launchData m 0 c).owesAt () t.castSucc from rfl,
    left_row, left_matrix, left_bias, left_out]
  iintro ⟨HΦ, Ho, ⟨%d0, H0⟩, ⟨%d1, H1⟩, ⟨%d2, H2⟩, ⟨%d3, H3⟩⟩
  iapply (body_runs c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_everywhere (c : Dev nD) : BodyObligation (launchData (F := F) m 0 c) (defs₀ (F := F)) Variants.none () Set.univ := fun t => by
  rw [bigSep_W0, bigSep_W0]
  exact body_at_point m c t

/-! ## The run -/

set_option backward.isDefEq.respectTransparency.types false in
/-- From any memory with zero counters every weakly fair execution of @main terminates without a fault; at the end
    each of the four arrays holds what the launch's data say, and every other buffer that outlives the region what the
    region found in it. -/
theorem run : θ_run defs (onTc (τ := τ) (main (F := F))) (s₀ m ρ) (Pipeline.FramePost cfgs (launchData m) 0 (atEntry m)) :=
  Pipeline.θ_run_frame cfgs (launchData m) (0 : Fin 1) launch0 defs₀ Variants.none m ρ main
    (hbody := fun c => (body_everywhere m c).loose) (hshare := fun c => (launchData m 0 c).share_full fun _ => rfl)
    (howed := fun _ _ => rfl) (V := atEntry m) (hmain := main_reaches_region m Variants.none) (hA := arrays_at_entry m) (hΦ := fun _ _ => rfl)

/-- The seven arguments end as they began: the input is a fetched array, which the launch returns as found; the six
    weights and biases are staged by no window, and the host lines before the region write none of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((launchData m 0 c).arrAt_in 0 rfl _).trans ((arrays_at_entry m c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c)⟩) (run m ρ)

end Cert.KernelIdeal.Region

end
-- ==== Proof.AttentionSpec.lean ====
/-
  Single-head attention over the extended reals, written over plain coordinates, and the one law that joins the two
  ways the programs spell the scores.

  For a row block x (1024 positions of 768 features), projections W (768 x 64) with biases b,
      q = x Wq + bq,   k = x Wk + bk,   v = x Wv + bv,
  the score of position s against position j is the inner product of q s and k j divided by 768; a row of scores is
  turned into weights by subtracting the row's largest score, exponentiating, and dividing by the row's sum; the
  result at (s, h) is the weighted sum over j of v j h.

  One program divides the finished inner product by 768; the other multiplies q by 1/768 before taking the inner
  product. A nonnegative real factor moves across a finite sum of extended reals whatever the summands are (at the
  infinities too), so the two scores are equal with no assumption on the inputs.
-/
import Idealize.ShloMosaic.PureOps.Ideal
import Idealize.ShloMosaic.Lib.ValueIdx

noncomputable section

open scoped BigOperators

namespace Cert.Attention

open Idealize.ShloMosaic Idealize.ShloMosaic.ValueIdx

/-- Minus infinity, as the f32 pattern both programs start their row maximum from. -/
abbrev negInf : EReal := Ideal.ofBits .f32 0xFF800000#32

/-- The divisor 768.0, as the f32 pattern the reference prints. -/
abbrev divisor : EReal := Ideal.ofBits .f32 0x44400000#32

/-- The pattern of 768.0 denotes the real 768. -/
theorem divisor_eq : divisor = ((768 : ℝ) : EReal) := by
  simp [Ideal.ofBits, Ideal.ieee, -EReal.coe_mul]; norm_num

/-- x W + b at (s, h). -/
def project (x : Fin 1024 → Fin 768 → EReal) (W : Fin 768 → Fin 64 → EReal) (b : Fin 64 → EReal)
    (s : Fin 1024) (h : Fin 64) : EReal :=
  (∑ d : Fin 768, x s d * W d h) + b h

/-- The largest entry of a row of scores (from minus infinity). -/
def rowTop (sc : Fin 1024 → EReal) : EReal := (Finset.univ : Finset (Fin 1024)).fold max negInf sc

/-- The softmax weight of entry j of a row of scores. -/
def weight (sc : Fin 1024 → EReal) (j : Fin 1024) : EReal :=
  Ideal.div (Ideal.exp (sc j - rowTop sc)) (∑ j' : Fin 1024, Ideal.exp (sc j' - rowTop sc))

/-- The weighted sum of the value rows. -/
def mix (sc : Fin 1024 → Fin 1024 → EReal) (v : Fin 1024 → Fin 64 → EReal) (s : Fin 1024) (h : Fin 64) : EReal :=
  ∑ j : Fin 1024, weight (sc s) j * v j h

/-- Scores with the factor c folded into q before the inner product. -/
def scoreScaled (c : EReal) (q k : Fin 1024 → Fin 64 → EReal) (s j : Fin 1024) : EReal :=
  ∑ h : Fin 64, (q s h * c) * k j h

/-- Scores with the finished inner product divided by 768. -/
def scoreDivided (q k : Fin 1024 → Fin 64 → EReal) (s j : Fin 1024) : EReal :=
  Ideal.div (∑ h : Fin 64, q s h * k j h) divisor

/-- A nonnegative finite factor moves across a finite sum of extended reals. -/
theorem sum_mul_const {ι : Type} (S : Finset ι) (f : ι → EReal) {c : EReal} (h0 : 0 ≤ c) (ht : c ≠ ⊤) :
    (∑ i ∈ S, f i) * c = ∑ i ∈ S, f i * c := by
  classical
  induction S using Finset.induction_on with
  | empty => simp
  | insert a S ha ih =>
    rw [Finset.sum_insert ha, Finset.sum_insert ha, EReal.right_distrib_of_nonneg_of_ne_top h0 ht, ih]

/-- The two spellings of the scores agree when the folded factor is 1/768. -/
theorem scores_agree (q k : Fin 1024 → Fin 64 → EReal) :
    scoreScaled (((1 / 768 : ℝ) : ℝ) : EReal) q k = scoreDivided q k := by
  funext s j
  unfold scoreScaled scoreDivided
  rw [divisor_eq, Ideal.div_coe (by norm_num : (768 : ℝ) ≠ 0),
    sum_mul_const _ _ (EReal.coe_nonneg.mpr (by norm_num)) (EReal.coe_ne_top _)]
  exact Finset.sum_congr rfl fun h _ => mul_right_comm _ _ _

/-- Attention of batch row n at (s, h), from the seven arguments by coordinates. -/
def attention (x : Fin 32 → Fin 1024 → Fin 768 → EReal) (Wq : Fin 768 → Fin 64 → EReal) (bq : Fin 64 → EReal)
    (Wk : Fin 768 → Fin 64 → EReal) (bk : Fin 64 → EReal) (Wv : Fin 768 → Fin 64 → EReal) (bv : Fin 64 → EReal)
    (n : Fin 32) (s : Fin 1024) (h : Fin 64) : EReal :=
  mix (scoreDivided (project (x n) Wq bq) (project (x n) Wk bk)) (project (x n) Wv bv) s h

/-- The result array as one function of the seven argument arrays. -/
def result (X : (⟨3, ![32, 1024, 768]⟩ : Shape).Idx → EReal)
    (Wq : (⟨2, ![768, 64]⟩ : Shape).Idx → EReal) (bq : (⟨1, ![64]⟩ : Shape).Idx → EReal)
    (Wk : (⟨2, ![768, 64]⟩ : Shape).Idx → EReal) (bk : (⟨1, ![64]⟩ : Shape).Idx → EReal)
    (Wv : (⟨2, ![768, 64]⟩ : Shape).Idx → EReal) (bv : (⟨1, ![64]⟩ : Shape).Idx → EReal) :
    (⟨3, ![32, 1024, 64]⟩ : Shape).Idx → EReal :=
  fun i => attention (fun n s d => X (ix3 n s d)) (fun d h => Wq (ix2 d h)) (fun h => bq (ix1 h))
    (fun d h => Wk (ix2 d h)) (fun h => bk (ix1 h)) (fun d h => Wv (ix2 d h)) (fun h => bv (ix1 h)) (i 0) (i 1) (i 2)

end Cert.Attention

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.BodyValue.lean ====
/-
  The kernel body's arithmetic, read at an index, at the ideal values.

  The body's one store is a composition of four stages of its three loaded blocks (the input row block x, the fused
  projection matrix w, the fused bias row b):
    fused   z = x w + b                                   (1024 x 192: the columns of q, k and v side by side),
    scores  S = (z[:, 0:64] · c) (z[:, 64:128])ᵀ          (1024 x 1024, c the folded factor),
    soft    A = exp (S - rowmax S) / rowsum (exp (S - rowmax S)),
    out     O = A z[:, 128:192]                           (1024 x 64, stored as a 1 x 1024 x 64 block).
  A change of float format is the identity on extended reals, a matrix product into a zero accumulator is the plain
  sum of products, a lane reduction is the sum (or the running maximum from minus infinity) over the row. So at entry
  (s, h) the store is the weighted sum the specification writes, over the three column groups of z.
-/
import proofs.«169789_j73899207295044_2_alg».proof.Proof.Gen.KernelIdeal.Skeleton
import proofs.«169789_j73899207295044_2_alg».proof.Proof.AttentionSpec
import proofs.«169789_j73899207295044_2_alg».proof.Proof.LibPlainDot
import proofs.«169789_j73899207295044_2_alg».proof.Proof.LibColumn
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.Body

open Cert.KernelIdeal Cert.KernelIdeal.Gen Idealize.ShloMosaic Idealize.ShloMosaic.ValueIdx Cert.Attention

/-- Column h of the q group, of the k group, of the v group, among the 192 fused columns. -/
def colQ (h : Fin 64) : Fin 192 := ⟨h.val, by omega⟩
def colK (h : Fin 64) : Fin 192 := ⟨64 + h.val, by omega⟩
def colV (h : Fin 64) : Fin 192 := ⟨128 + h.val, by omega⟩

/-- z = x w + b. -/
def fused (x : Vec Ideal S1x1024x768 .f32) (w : Vec Ideal S768x192 .f32) (b : Vec Ideal S1x192 .f32) : FVec Ideal S1024x192 .f32 :=
  addf (matmul dot_S1024x768_S768x192_S1024x192_1_0_0_1_n_n none
      (truncf .bf16 (shapeCast S1024x768 x Facts₀.shapeCasts_S1x1024x768_S1024x768) Facts₀.bitsLt_bf16_f32)
      (truncf .bf16 (shapeCast S768x192 w Facts₀.shapeCasts_S768x192_S768x192) Facts₀.bitsLt_bf16_f32)
      (constant (F := Ideal) S1024x192 .f32 0x00000000#32))
    (broadcastTo S1024x192 (shapeCast S1x192 b Facts₀.shapeCasts_S1x192_S1x192) Facts₀.broadcasts_S1x192_S1024x192)

/-- S = (z_q · c) z_kᵀ. -/
def scoresOf (c : Ideal .f32) (z : FVec Ideal S1024x192 .f32) : FVec Ideal S1024x1024 .f32 :=
  matmul dot_S1024x64_S64x1024_S1024x1024_1_0_0_1_n_n none
    (truncf .bf16 (mulf (extractStridedSlice S1024x64 ![0, 0] z Facts₀.slices_S1024x192_o0_0_S1024x64) (broadcast S1024x64 c)) Facts₀.bitsLt_bf16_f32)
    (transpose S64x1024 [1, 0] (truncf .bf16 (extractStridedSlice S1024x64 ![0, 64] z Facts₀.slices_S1024x192_o0_64_S1024x64) Facts₀.bitsLt_bf16_f32) Facts₀.transposes_S1024x64_p1_0_S64x1024)
    (constant (F := Ideal) S1024x1024 .f32 0x00000000#32)

/-- exp (S - rowmax S). -/
def shifted (sc : FVec Ideal S1024x1024 .f32) : FVec Ideal S1024x1024 .f32 :=
  exp (subf sc (broadcastTo S1024x1024 (shapeCast S1024x1
    (multiReduction .maximumf [1] S1024 sc 0xFF800000#32 Facts₀.reduces_S1024x1024_S1024 (.inl rfl) rfl)
    Facts₀.shapeCasts_S1024_S1024x1) Facts₀.broadcasts_S1024x1_S1024x1024))

/-- A = E / rowsum E. -/
def normalized (e : FVec Ideal S1024x1024 .f32) : FVec Ideal S1024x1024 .f32 :=
  divf e (broadcastTo S1024x1024 (shapeCast S1024x1
    (multiReduction .add [1] S1024 e 0x00000000#32 Facts₀.reduces_S1024x1024_S1024 (.inl rfl) rfl)
    Facts₀.shapeCasts_S1024_S1024x1) Facts₀.broadcasts_S1024x1_S1024x1024)

/-- O = A z_v, as a 1 x 1024 x 64 block. -/
def outOf (a : FVec Ideal S1024x1024 .f32) (z : FVec Ideal S1024x192 .f32) : FVec Ideal S1x1024x64 .f32 :=
  shapeCast S1x1024x64 (matmul dot_S1024x1024_S1024x64_S1024x64_1_0_0_1_n_n none
      (truncf .bf16 a Facts₀.bitsLt_bf16_f32)
      (truncf .bf16 (extractStridedSlice S1024x64 ![0, 128] z Facts₀.slices_S1024x192_o0_128_S1024x64) Facts₀.bitsLt_bf16_f32)
      (constant (F := Ideal) S1024x64 .f32 0x00000000#32))
    Facts₀.shapeCasts_S1024x64_S1x1024x64

/-- The body's store is the four stages composed. -/
theorem store_eq (x : Vec Ideal S1x1024x768 .f32) (w : Vec Ideal S768x192 .f32) (b : Vec Ideal S1x192 .f32) :
    k0_pay1 (F := Ideal) x w b
      = outOf (normalized (shifted (scoresOf (Named.named κ "inv_768" 0x3AAAAAAB#32) (fused x w b)))) (fused x w b) := rfl

/-- z at (s, g): row s of x against column g of w, plus the bias at g. -/
theorem fused_apply (x : Vec Ideal S1x1024x768 .f32) (w : Vec Ideal S768x192 .f32) (b : Vec Ideal S1x192 .f32)
    (s : Fin 1024) (g : Fin 192) :
    fused x w b (ix2 s g) = (∑ d : Fin 768, x (ix3 (0 : Fin 1) s d) * w (ix2 d g)) + b (ix2 (0 : Fin 1) g) := by
  unfold fused
  rw [addf_apply]
  congr 1
  · refine (Cert.LibPlainDot.matmul_zero_apply (M := 1024) (K := 768) (N := 192) none _ _ s g).trans ?_
    refine Finset.sum_congr rfl fun d _ => ?_
    rw [truncf_apply, truncf_apply, shapeCast_1ab_ab_apply, shapeCast_self]
  · rw [broadcastTo_1b_ab_apply, shapeCast_self]

/-- S at (s, j): the scaled q row s against the k row j. -/
theorem scoresOf_apply (c : Ideal .f32) (z : FVec Ideal S1024x192 .f32) (s j : Fin 1024) :
    scoresOf c z (ix2 s j) = ∑ h : Fin 64, (z (ix2 s (colQ h)) * c) * z (ix2 j (colK h)) := by
  unfold scoresOf
  refine (Cert.LibPlainDot.matmul_zero_apply (M := 1024) (K := 64) (N := 1024) none _ _ s j).trans ?_
  refine Finset.sum_congr rfl fun h _ => ?_
  rw [truncf_apply, mulf_apply, broadcast_apply,
    slice2_axis1_apply 0 z Facts₀.slices_S1024x192_o0_0_S1024x64 s h (colQ h) (Nat.zero_add _).symm,
    transpose_ix2_apply, truncf_apply,
    slice2_axis1_apply 64 z Facts₀.slices_S1024x192_o0_64_S1024x64 j h (colK h) rfl]

/-- The lane maximum of row s is the running maximum of the row from minus infinity. -/
theorem rowmax_apply (sc : FVec Ideal S1024x1024 .f32) (s : Fin 1024) :
    multiReduction .maximumf [1] S1024 sc 0xFF800000#32 Facts₀.reduces_S1024x1024_S1024 (.inl rfl) rfl (ix1 s)
      = rowTop (fun j => sc (ix2 s j)) := by
  refine (Ideal.multiReduction_maximumf_single sc 0xFF800000#32 Facts₀.reduces_S1024x1024_S1024 (.inl rfl) rfl (ix1 s)).trans ?_
  unfold rowTop
  exact Finset.fold_congr fun k _ =>
    congrArg sc (funext fun a => Fin.ext (by match a with | ⟨0, _⟩ => rfl | ⟨1, _⟩ => rfl))

/-- E at (s, j). -/
theorem shifted_apply (sc : FVec Ideal S1024x1024 .f32) (s j : Fin 1024) :
    shifted sc (ix2 s j) = Ideal.exp (sc (ix2 s j) - rowTop (fun j' => sc (ix2 s j'))) := by
  unfold shifted
  show Ideal.exp (sc (ix2 s j) - broadcastTo S1024x1024 _ Facts₀.broadcasts_S1024x1_S1024x1024 (ix2 s j)) = _
  rw [Cert.LibColumn.broadcastTo_a1_ab_apply, Cert.LibColumn.shapeCast_a_a1_apply, rowmax_apply]

/-- A at (s, j): the entry over its row's sum. -/
theorem normalized_apply (e : FVec Ideal S1024x1024 .f32) (s j : Fin 1024) :
    normalized e (ix2 s j) = Ideal.div (e (ix2 s j)) (∑ j' : Fin 1024, e (ix2 s j')) := by
  unfold normalized
  rw [divf_apply, Cert.LibColumn.broadcastTo_a1_ab_apply, Cert.LibColumn.shapeCast_a_a1_apply]
  congr 1
  refine (Ideal.multiReduction_add_single e 0x00000000#32 Facts₀.reduces_S1024x1024_S1024 (.inl rfl) rfl (ix1 s)).trans ?_
  exact Finset.sum_congr rfl fun k _ =>
    congrArg e (funext fun a => Fin.ext (by match a with | ⟨0, _⟩ => rfl | ⟨1, _⟩ => rfl))

/-- O at (0, s, h): row s of A against column h of the v group. -/
theorem outOf_apply (a : FVec Ideal S1024x1024 .f32) (z : FVec Ideal S1024x192 .f32) (u : Fin 1) (s : Fin 1024) (h : Fin 64) :
    outOf a z (ix3 u s h) = ∑ j : Fin 1024, a (ix2 s j) * z (ix2 j (colV h)) := by
  unfold outOf
  rw [shapeCast_ab_1ab_apply]
  refine (Cert.LibPlainDot.matmul_zero_apply (M := 1024) (K := 1024) (N := 64) none _ _ s h).trans ?_
  refine Finset.sum_congr rfl fun j _ => ?_
  rw [truncf_apply, truncf_apply,
    slice2_axis1_apply 128 z Facts₀.slices_S1024x192_o0_128_S1024x64 j h (colV h) rfl]

/-- One column group of z as a projection of the row block: the columns the group selects from the fused matrix
    and the fused bias. -/
def group (col : Fin 64 → Fin 192) (x : Vec Ideal S1x1024x768 .f32) (w : Vec Ideal S768x192 .f32) (b : Vec Ideal S1x192 .f32) :
    Fin 1024 → Fin 64 → EReal :=
  project (fun s d => x (ix3 (0 : Fin 1) s d)) (fun d h => w (ix2 d (col h))) (fun h => b (ix2 (0 : Fin 1) (col h)))

theorem fused_group (col : Fin 64 → Fin 192) (x : Vec Ideal S1x1024x768 .f32) (w : Vec Ideal S768x192 .f32) (b : Vec Ideal S1x192 .f32)
    (s : Fin 1024) (h : Fin 64) : fused x w b (ix2 s (col h)) = group col x w b s h :=
  fused_apply x w b s (col h)

/-- The folded factor is 1/768 by the certificate's table of named constants. -/
theorem folded_factor : Named.named (F := Ideal) κ "inv_768" (φ := .f32) 0x3AAAAAAB#32 = (((1 / 768 : ℝ) : ℝ) : EReal) :=
  IdealRules.named_const.ideal_named_scalar _ _ _ _ rfl

/-- THE BODY'S STORE AT AN INDEX: the attention of the row block, with q, k, v the three column groups, in the
    specification's spelling (the scores divided after the inner product). -/
theorem store_apply (x : Vec Ideal S1x1024x768 .f32) (w : Vec Ideal S768x192 .f32) (b : Vec Ideal S1x192 .f32)
    (u : Fin 1) (s : Fin 1024) (h : Fin 64) :
    k0_pay1 (F := Ideal) x w b (ix3 u s h)
      = mix (scoreDivided (group colQ x w b) (group colK x w b)) (group colV x w b) s h := by
  have hrow : (fun j' : Fin 1024 => scoresOf (Named.named κ "inv_768" 0x3AAAAAAB#32) (fused x w b) (ix2 s j'))
      = scoreDivided (group colQ x w b) (group colK x w b) s := by
    funext j'
    rw [scoresOf_apply, folded_factor, ← scores_agree]
    unfold scoreScaled
    exact Finset.sum_congr rfl fun h' _ => by rw [fused_group colQ, fused_group colK]
  have hE : ∀ j' : Fin 1024,
      shifted (scoresOf (Named.named κ "inv_768" 0x3AAAAAAB#32) (fused x w b)) (ix2 s j')
        = Ideal.exp (scoreDivided (group colQ x w b) (group colK x w b) s j'
            - rowTop (scoreDivided (group colQ x w b) (group colK x w b) s)) := fun j' => by
    rw [shifted_apply, hrow, congrFun hrow j']
  rw [store_eq, outOf_apply]
  unfold mix weight
  refine Finset.sum_congr rfl fun j _ => ?_
  rw [normalized_apply, fused_group colV, hE j]
  congr 2
  exact Finset.sum_congr rfl fun j' _ => hE j'

end Cert.KernelIdeal.Body

end
-- ==== Proof.LibConcat3.lean ====
/-
  Three pieces of one shape laid side by side, read at an index.

  A concatenation of three R x C matrices along the columns reads, at (r, g), piece k at (r, c) when g = k·C + c;
  a concatenation of three length-C vectors reads, at g, piece k at c when g = k·C + c. Stated piece by piece.
-/
import Idealize.ShloMosaic.Lib.Pipeline.Value
import Idealize.ShloMosaic.Lib.ValueIdx

namespace Cert.LibConcat3

open Idealize.ShloMosaic Idealize.ShloMosaic.ValueIdx

variable {α : Type}

section Columns

variable {R C N : ℕ} (A B D : (⟨2, ![R, C]⟩ : Shape).Idx → α)
  (h : Shape.Concatenates [(⟨2, ![R, C]⟩ : Shape), ⟨2, ![R, C]⟩, ⟨2, ![R, C]⟩] ⟨2, ![R, N]⟩ 1)

/-- Columns 0 … C-1 are the first piece. -/
theorem cols_first (r : Fin R) (c : Fin C) (g : Fin N) (hg : g.val = c.val) :
    concatenate ⟨2, ![R, N]⟩ 1 [⟨⟨2, ![R, C]⟩, A⟩, ⟨⟨2, ![R, C]⟩, B⟩, ⟨⟨2, ![R, C]⟩, D⟩] h (ix2 r g) = A (ix2 r c) :=
  concatenate_apply_piece 1 [⟨⟨2, ![R, C]⟩, A⟩, ⟨⟨2, ![R, C]⟩, B⟩, ⟨⟨2, ![R, C]⟩, D⟩] h (ix2 r g) 0 (by simp) _ A rfl rfl 0 rfl (ix2 r c)
    (fun b hb => by match b with | ⟨0, _⟩ => rfl | ⟨1, _⟩ => exact absurd rfl hb)
    (by show 0 + c.val = g.val; omega)

/-- Columns C … 2C-1 are the second piece. -/
theorem cols_second (r : Fin R) (c : Fin C) (g : Fin N) (hg : g.val = C + c.val) :
    concatenate ⟨2, ![R, N]⟩ 1 [⟨⟨2, ![R, C]⟩, A⟩, ⟨⟨2, ![R, C]⟩, B⟩, ⟨⟨2, ![R, C]⟩, D⟩] h (ix2 r g) = B (ix2 r c) :=
  concatenate_apply_piece 1 [⟨⟨2, ![R, C]⟩, A⟩, ⟨⟨2, ![R, C]⟩, B⟩, ⟨⟨2, ![R, C]⟩, D⟩] h (ix2 r g) 1 (by simp) _ B rfl rfl C (by simp) (ix2 r c)
    (fun b hb => by match b with | ⟨0, _⟩ => rfl | ⟨1, _⟩ => exact absurd rfl hb)
    (by show C + c.val = g.val; omega)

/-- Columns 2C … 3C-1 are the third piece. -/
theorem cols_third (r : Fin R) (c : Fin C) (g : Fin N) (hg : g.val = C + C + c.val) :
    concatenate ⟨2, ![R, N]⟩ 1 [⟨⟨2, ![R, C]⟩, A⟩, ⟨⟨2, ![R, C]⟩, B⟩, ⟨⟨2, ![R, C]⟩, D⟩] h (ix2 r g) = D (ix2 r c) :=
  concatenate_apply_piece 1 [⟨⟨2, ![R, C]⟩, A⟩, ⟨⟨2, ![R, C]⟩, B⟩, ⟨⟨2, ![R, C]⟩, D⟩] h (ix2 r g) 2 (by simp) _ D rfl rfl (C + C) (by simp) (ix2 r c)
    (fun b hb => by match b with | ⟨0, _⟩ => rfl | ⟨1, _⟩ => exact absurd rfl hb)
    (by show C + C + c.val = g.val; omega)

end Columns

section Vectors

variable {C N : ℕ} (a b d : (⟨1, ![C]⟩ : Shape).Idx → α)
  (h : Shape.Concatenates [(⟨1, ![C]⟩ : Shape), ⟨1, ![C]⟩, ⟨1, ![C]⟩] ⟨1, ![N]⟩ 0)

/-- Entries 0 … C-1 are the first piece. -/
theorem vec_first (c : Fin C) (g : Fin N) (hg : g.val = c.val) :
    concatenate ⟨1, ![N]⟩ 0 [⟨⟨1, ![C]⟩, a⟩, ⟨⟨1, ![C]⟩, b⟩, ⟨⟨1, ![C]⟩, d⟩] h (ix1 g) = a (ix1 c) :=
  concatenate_apply_piece 0 [⟨⟨1, ![C]⟩, a⟩, ⟨⟨1, ![C]⟩, b⟩, ⟨⟨1, ![C]⟩, d⟩] h (ix1 g) 0 (by simp) _ a rfl rfl 0 rfl (ix1 c)
    (fun b hb => by match b with | ⟨0, _⟩ => exact absurd rfl hb)
    (by show 0 + c.val = g.val; omega)

/-- Entries C … 2C-1 are the second piece. -/
theorem vec_second (c : Fin C) (g : Fin N) (hg : g.val = C + c.val) :
    concatenate ⟨1, ![N]⟩ 0 [⟨⟨1, ![C]⟩, a⟩, ⟨⟨1, ![C]⟩, b⟩, ⟨⟨1, ![C]⟩, d⟩] h (ix1 g) = b (ix1 c) :=
  concatenate_apply_piece 0 [⟨⟨1, ![C]⟩, a⟩, ⟨⟨1, ![C]⟩, b⟩, ⟨⟨1, ![C]⟩, d⟩] h (ix1 g) 1 (by simp) _ b rfl rfl C (by simp) (ix1 c)
    (fun b hb => by match b with | ⟨0, _⟩ => exact absurd rfl hb)
    (by show C + c.val = g.val; omega)

/-- Entries 2C … 3C-1 are the third piece. -/
theorem vec_third (c : Fin C) (g : Fin N) (hg : g.val = C + C + c.val) :
    concatenate ⟨1, ![N]⟩ 0 [⟨⟨1, ![C]⟩, a⟩, ⟨⟨1, ![C]⟩, b⟩, ⟨⟨1, ![C]⟩, d⟩] h (ix1 g) = d (ix1 c) :=
  concatenate_apply_piece 0 [⟨⟨1, ![C]⟩, a⟩, ⟨⟨1, ![C]⟩, b⟩, ⟨⟨1, ![C]⟩, d⟩] h (ix1 g) 2 (by simp) _ d rfl rfl (C + C) (by simp) (ix1 c)
    (fun b hb => by match b with | ⟨0, _⟩ => exact absurd rfl hb)
    (by show C + C + c.val = g.val; omega)

end Vectors

end Cert.LibConcat3
-- ==== Proof.KernelValue.lean ====
/-
  The idealized kernel's result array as one function of the seven arguments.

  The region finds the fused matrix equal to the three projection matrices side by side and the bias row equal to the
  three biases end to end. Grid point t is handed batch row t of the input, the whole fused matrix and the whole bias
  row, so the three column groups of its fused projection are the q, k and v of batch row t; its store is therefore
  the attention of batch row t, and it is written back to block t of the result, rows t of the leading axis. The 32
  blocks tile the result array, one per batch row, so the array ends holding the attention of every batch row.
-/
import proofs.«169789_j73899207295044_2_alg».proof.Proof.RegionIdeal
import proofs.«169789_j73899207295044_2_alg».proof.Proof.BodyValue
import proofs.«169789_j73899207295044_2_alg».proof.Proof.LibConcat3
import proofs.«169789_j73899207295044_2_alg».proof.Proof.AttentionSpec
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.Whole

open Cert.KernelIdeal Cert.KernelIdeal.Gen Cert.KernelIdeal.Region Cert.KernelIdeal.Body Cert.Attention
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- The attention of the seven arguments as core c was launched with them. -/
abbrev target (c : Dev nD) : S32x1024x64.Idx → EReal :=
  Cert.Attention.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## What the region finds in the fused matrix and the bias row -/

theorem entry_matrix (c : Dev nD) : (atEntry m c main_v0 : S768x192.Idx → EReal)
    = concatenate S768x192 1 [⟨S768x64, m ((c : Thread nD τ).loc main_arg1)⟩, ⟨S768x64, m ((c : Thread nD τ).loc main_arg3)⟩,
        ⟨S768x64, m ((c : Thread nD τ).loc main_arg5)⟩] Facts₀.concatenates_S768x64_S768x64_S768x64_S768x192_d1 := by
  dsimp only [atEntry, hostOps0]
  after_results
  rfl

theorem entry_bias (c : Dev nD) : (atEntry m c main_v2 : S1x192.Idx → EReal)
    = shapeCast S1x192 (concatenate S192 0 [⟨S64, m ((c : Thread nD τ).loc main_arg2)⟩, ⟨S64, m ((c : Thread nD τ).loc main_arg4)⟩,
        ⟨S64, m ((c : Thread nD τ).loc main_arg6)⟩] Facts₀.concatenates_S64_S64_S64_S192_d0) Facts₀.shapeCasts_S192_S1x192 := by
  dsimp only [atEntry, hostOps0]
  after_results
  beta_reduce
  repeat (rw [nary_result_ne]; rotate_left; decide)
  rfl

/-- The three column groups of the fused matrix are the three projection matrices. -/
theorem matrix_q (c : Dev nD) (d : Fin 768) (h : Fin 64) :
    (atEntry m c main_v0 : S768x192.Idx → EReal) (ix2 d (colQ h)) = (m ((c : Thread nD τ).loc main_arg1) : S768x64.Idx → EReal) (ix2 d h) := by
  rw [entry_matrix]
  exact Cert.LibConcat3.cols_first _ _ _ _ d h (colQ h) rfl
theorem matrix_k (c : Dev nD) (d : Fin 768) (h : Fin 64) :
    (atEntry m c main_v0 : S768x192.Idx → EReal) (ix2 d (colK h)) = (m ((c : Thread nD τ).loc main_arg3) : S768x64.Idx → EReal) (ix2 d h) := by
  rw [entry_matrix]
  exact Cert.LibConcat3.cols_second _ _ _ _ d h (colK h) rfl
theorem matrix_v (c : Dev nD) (d : Fin 768) (h : Fin 64) :
    (atEntry m c main_v0 : S768x192.Idx → EReal) (ix2 d (colV h)) = (m ((c : Thread nD τ).loc main_arg5) : S768x64.Idx → EReal) (ix2 d h) := by
  rw [entry_matrix]
  exact Cert.LibConcat3.cols_third _ _ _ _ d h (colV h) rfl

/-- The three groups of the bias row are the three biases. -/
theorem bias_q (c : Dev nD) (h : Fin 64) :
    (atEntry m c main_v2 : S1x192.Idx → EReal) (ix2 (0 : Fin 1) (colQ h)) = (m ((c : Thread nD τ).loc main_arg2) : S64.Idx → EReal) (ix1 h) := by
  rw [entry_bias, shapeCast_a_1a_apply]
  exact Cert.LibConcat3.vec_first _ _ _ _ h (colQ h) rfl
theorem bias_k (c : Dev nD) (h : Fin 64) :
    (atEntry m c main_v2 : S1x192.Idx → EReal) (ix2 (0 : Fin 1) (colK h)) = (m ((c : Thread nD τ).loc main_arg4) : S64.Idx → EReal) (ix1 h) := by
  rw [entry_bias, shapeCast_a_1a_apply]
  exact Cert.LibConcat3.vec_second _ _ _ _ h (colK h) rfl
theorem bias_v (c : Dev nD) (h : Fin 64) :
    (atEntry m c main_v2 : S1x192.Idx → EReal) (ix2 (0 : Fin 1) (colV h)) = (m ((c : Thread nD τ).loc main_arg6) : S64.Idx → EReal) (ix1 h) := by
  rw [entry_bias, shapeCast_a_1a_apply]
  exact Cert.LibConcat3.vec_third _ _ _ _ h (colV h) rfl

/-! ## The blocks at a grid point -/

/-- The index maps over the grid: the input row and the result move with the point along the leading axis; the fused
    matrix and the bias row stay put. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The input block at point t is batch row t of the input. -/
theorem row_block_apply (c : Dev nD) (t : Fin cfg0.N) (s : Fin 1024) (d : Fin 768) (n : Fin 32) (hn : n.val = t.val) :
    (blockAt m c 0 t : Vec Ideal S1x1024x768 .f32) (ix3 (0 : Fin 1) s d)
      = (m ((c : Thread nD τ).loc main_arg0) : S32x1024x768.Idx → EReal) (ix3 n s d) := by
  obtain ⟨e0, e1, e2, -⟩ := block_indices t
  unfold blockAt
  rw [View.read_apply]
  show atEntry m c main_arg0 _ = m (c.tc.loc main_arg0) _
  rw [entry_arg0]
  congr 1
  funext a
  apply Fin.ext
  match a with
  | ⟨0, _⟩ => show win0_0.index t (0 : Fin 3) * 1 + 1 * 0 = n.val; rw [e0, hn]; omega
  | ⟨1, _⟩ => show win0_0.index t (1 : Fin 3) * 1024 + 1 * s.val = s.val; rw [e1]; omega
  | ⟨2, _⟩ => show win0_0.index t (2 : Fin 3) * 768 + 1 * d.val = d.val; rw [e2]; omega

/-- The matrix block at any point is the whole fused matrix. -/
theorem matrix_block_apply (c : Dev nD) (t : Fin cfg0.N) (d : Fin 768) (g : Fin 192) :
    (blockAt m c 1 t : Vec Ideal S768x192 .f32) (ix2 d g) = (atEntry m c main_v0 : S768x192.Idx → EReal) (ix2 d g) := by
  obtain ⟨-, -, -, e0, e1, -⟩ := block_indices t
  unfold blockAt
  rw [View.read_apply]
  show atEntry m c main_v0 _ = atEntry m c main_v0 _
  congr 1
  funext a
  apply Fin.ext
  match a with
  | ⟨0, _⟩ => show win0_1.index t (0 : Fin 2) * 768 + 1 * d.val = d.val; rw [e0]; omega
  | ⟨1, _⟩ => show win0_1.index t (1 : Fin 2) * 192 + 1 * g.val = g.val; rw [e1]; omega

/-- The bias block at any point is the whole bias row. -/
theorem bias_block_apply (c : Dev nD) (t : Fin cfg0.N) (g : Fin 192) :
    (blockAt m c 2 t : Vec Ideal S1x192 .f32) (ix2 (0 : Fin 1) g) = (atEntry m c main_v2 : S1x192.Idx → EReal) (ix2 (0 : Fin 1) g) := by
  obtain ⟨-, -, -, -, -, e0, e1, -⟩ := block_indices t
  unfold blockAt
  rw [View.read_apply]
  show atEntry m c main_v2 _ = atEntry m c main_v2 _
  congr 1
  funext a
  apply Fin.ext
  match a with
  | ⟨0, _⟩ => show win0_2.index t (0 : Fin 2) * 1 + 1 * 0 = 0; rw [e0]
  | ⟨1, _⟩ => show win0_2.index t (1 : Fin 2) * 192 + 1 * g.val = g.val; rw [e1]; omega

/-! ## From the three blocks to q, k, v of the batch row -/

theorem project_congr {x x' : Fin 1024 → Fin 768 → EReal} {W W' : Fin 768 → Fin 64 → EReal} {b b' : Fin 64 → EReal}
    (hx : ∀ s d, x s d = x' s d) (hW : ∀ d h, W d h = W' d h) (hb : ∀ h, b h = b' h) : project x W b = project x' W' b' := by
  have e1 : x = x' := funext fun s => funext fun d => hx s d
  have e2 : W = W' := funext fun d => funext fun h => hW d h
  have e3 : b = b' := funext hb
  rw [e1, e2, e3]

/-- Blocks that read as a batch row, three projection matrices and three biases give that row's attention. -/
theorem attention_of_blocks (X : Vec Ideal S1x1024x768 .f32) (W : Vec Ideal S768x192 .f32) (B : Vec Ideal S1x192 .f32)
    (x : Fin 1024 → Fin 768 → EReal) (Wq Wk Wv : Fin 768 → Fin 64 → EReal) (bq bk bv : Fin 64 → EReal)
    (hX : ∀ s d, X (ix3 (0 : Fin 1) s d) = x s d)
    (hq : ∀ d h, W (ix2 d (colQ h)) = Wq d h) (hk : ∀ d h, W (ix2 d (colK h)) = Wk d h) (hv : ∀ d h, W (ix2 d (colV h)) = Wv d h)
    (hbq : ∀ h, B (ix2 (0 : Fin 1) (colQ h)) = bq h) (hbk : ∀ h, B (ix2 (0 : Fin 1) (colK h)) = bk h)
    (hbv : ∀ h, B (ix2 (0 : Fin 1) (colV h)) = bv h) (u : Fin 1) (s : Fin 1024) (h : Fin 64) :
    k0_pay1 (F := Ideal) X W B (ix3 u s h)
      = mix (scoreDivided (project x Wq bq) (project x Wk bk)) (project x Wv bv) s h := by
  rw [store_apply]
  have eq : group colQ X W B = project x Wq bq := project_congr hX hq hbq
  have ek : group colK X W B = project x Wk bk := project_congr hX hk hbk
  have ev : group colV X W B = project x Wv bv := project_congr hX hv hbv
  rw [eq, ek, ev]

/-! ## What each point writes back, and the whole array -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- Point t writes back block t of the attention of the arguments. -/
theorem written_back (c : Dev nD) (t : Fin cfg0.N) :
    (launchData m 0 c).flushed 3 t = ((cfg0.win 3).blk t).view.read (Elt Ideal) (target m c) := by
  have hN : cfg0.N = 32 := N_0
  obtain ⟨-, -, -, -, -, -, -, e0, e1, e2⟩ := block_indices t
  show (cfg0.win 3).cut (grid0.coords t) ((launchData m 0 c).after 3 t) = _
  rw [left_out]
  unfold written
  rw [View.canon_unit_zero zeros3]
  simp only [View.ld_unit_zero (S := S1x1024x768) zeros3, View.ld_unit_zero (S := S768x192) zeros2,
    View.ld_unit_zero (S := S1x192) zeros2]
  funext y
  obtain ⟨u, s, h, rfl⟩ : ∃ (u : Fin 1) (s : Fin 1024) (h : Fin 64), (y : S1x1024x64.Idx) = ix3 u s h :=
    ⟨y 0, y 1, y 2, eq_ix3 y⟩
  have hu : u.val = 0 := by omega
  have hemb : ((cfg0.win 3).blk t).view.emb (ix3 u s h) = (ix3 (⟨t.val, hN ▸ t.isLt⟩ : Fin 32) s h : S32x1024x64.Idx) := by
    funext a
    apply Fin.ext
    match a with
    | ⟨0, _⟩ => show win0_3.index t (0 : Fin 3) * 1 + 1 * u.val = t.val; rw [e0, hu]; omega
    | ⟨1, _⟩ => show win0_3.index t (1 : Fin 3) * 1024 + 1 * s.val = s.val; rw [e1]; omega
    | ⟨2, _⟩ => show win0_3.index t (2 : Fin 3) * 64 + 1 * h.val = h.val; rw [e2]; omega
  show k0_pay1 (F := Ideal) (blockAt m c 0 t) (blockAt m c 1 t) (blockAt m c 2 t) (ix3 u s h)
    = target m c (((cfg0.win 3).blk t).view.emb (ix3 u s h))
  rw [hemb]
  exact attention_of_blocks (blockAt m c 0 t) (blockAt m c 1 t) (blockAt m c 2 t) _ _ _ _ _ _ _
    (fun s d => row_block_apply m c t s d ⟨t.val, hN ▸ t.isLt⟩ rfl)
    (fun d h => (matrix_block_apply m c t d (colQ h)).trans (matrix_q m c d h))
    (fun d h => (matrix_block_apply m c t d (colK h)).trans (matrix_k m c d h))
    (fun d h => (matrix_block_apply m c t d (colV h)).trans (matrix_v m c d h))
    (fun h => (bias_block_apply m c t (colQ h)).trans (bias_q m c h))
    (fun h => (bias_block_apply m c t (colK h)).trans (bias_k m c h))
    (fun h => (bias_block_apply m c t (colV h)).trans (bias_v m c h)) u s h

/-- An index of the result is in point t's block when each coordinate is in the block's range on its axis. -/
theorem in_block (t : Fin cfg0.N) (i : S32x1024x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v3).slice (win0_3.rect t)).set ↔ _
  rw [View.set_slice_whole, Rect.mem_set_unit]
  exact Iff.rfl

/-- Every index of the result is in the block of the point numbered by its batch row. -/
theorem every_index_written (i : S32x1024x64.Idx) :
    ∃ t : Fin cfg0.N, (cfg0.win 3).flush t = true ∧ i ∈ ((cfg0.win 3).blk t).view.set := by
  have hN : cfg0.N = 32 := N_0
  have hi0 : (i 0).val < 32 := (i 0).isLt
  have hi1 : (i 1).val < 1024 := (i 1).isLt
  have hi2 : (i 2).val < 64 := (i 2).isLt
  refine ⟨⟨(i 0).val, hN ▸ hi0⟩, flush0_3 _, ?_⟩
  rw [in_block]
  obtain ⟨-, -, -, -, -, -, -, e0, e1, e2⟩ := block_indices ⟨(i 0).val, hN ▸ hi0⟩
  intro a
  match a with
  | ⟨0, _⟩ =>
    show win0_3.index _ (0 : Fin 3) * 1 ≤ (i 0).val ∧ (i 0).val < win0_3.index _ (0 : Fin 3) * 1 + 1
    rw [e0]
    show (i 0).val * 1 ≤ (i 0).val ∧ (i 0).val < (i 0).val * 1 + 1
    exact ⟨by omega, by omega⟩
  | ⟨1, _⟩ =>
    show win0_3.index _ (1 : Fin 3) * 1024 ≤ (i 1).val ∧ (i 1).val < win0_3.index _ (1 : Fin 3) * 1024 + 1024
    rw [e1]; exact ⟨by omega, by omega⟩
  | ⟨2, _⟩ =>
    show win0_3.index _ (2 : Fin 3) * 64 ≤ (i 2).val ∧ (i 2).val < win0_3.index _ (2 : Fin 3) * 64 + 64
    rw [e2]; exact ⟨by omega, by omega⟩

/-- The result array after the launch is the attention of the arguments. -/
theorem final_array (c : Dev nD) : (launchData m 0 c).arrAt 3 cfg0.N = target m c :=
  (launchData m 0 c).arrAt_eq_of_cover 3 (target m c) (fun t _ => written_back m c t) every_index_written

/-- The run, read: the result array at the attention of the arguments, the arguments unchanged. -/
theorem run : θ_run defs (onTc (τ := τ) (main (F := Ideal))) ⟨m, fun _ => 0, ρ⟩ (fun r => ∀ c : Dev nD,
      r.2.mem ((c.tc : Thread nD τ).loc main_v3) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 3).trans (final_array m c),
      ((h c).1 0).trans (((launchData m 0 c).arrAt_in 0 rfl _).trans ((arrays_at_entry m c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c)⟩)
    (Cert.KernelIdeal.Region.run m ρ)

end Cert.KernelIdeal.Whole

end
-- ==== Proof.ReferenceValue.lean ====
/-
  The reference program's result, read index by index, is single-head attention as the specification writes it.

  The program's operations are read one at a time at an index given by its coordinates: the three projections
  x W + b; the scores, an inner product over the 64 features divided by 768; the row's largest score, a fold of max
  from minus infinity over the row (the further maximum against minus infinity changes nothing); the exponentials of
  the scores less that largest one; their row sum from zero; the quotient; and the weighted sum of the value rows.
-/
import proofs.«169789_j73899207295044_2_alg».proof.Proof.Gen.ReferenceIdeal.Read
import proofs.«169789_j73899207295044_2_alg».proof.Proof.AttentionSpec
import Idealize.ShloMosaic.Lib.ValueIdx
import Idealize.ShloMosaic.PureOps.Ideal.Laws
import Idealize.ShloMosaic.PureOps.Reduce

noncomputable section

open scoped BigOperators

namespace Cert.ReferenceIdeal.Attn

open Cert.ReferenceIdeal Cert.ReferenceIdeal.Gen Cert.ReferenceIdeal.Read Idealize.ShloMosaic Idealize.ShloMosaic.ValueIdx
open Cert.Attention

variable (x0 : (⟨S32x1024x768, .f32⟩ : BufTy).Contents (Elt Ideal)) (x1 : (⟨S768x64, .f32⟩ : BufTy).Contents (Elt Ideal))
  (x2 : (⟨S64, .f32⟩ : BufTy).Contents (Elt Ideal)) (x3 : (⟨S768x64, .f32⟩ : BufTy).Contents (Elt Ideal))
  (x4 : (⟨S64, .f32⟩ : BufTy).Contents (Elt Ideal)) (x5 : (⟨S768x64, .f32⟩ : BufTy).Contents (Elt Ideal))
  (x6 : (⟨S64, .f32⟩ : BufTy).Contents (Elt Ideal))

/-- Batch row n of the input, by coordinates. -/
abbrev rowsOf (n : Fin 32) : Fin 1024 → Fin 768 → EReal := fun s d => x0 (ix3 n s d)

/-- A projection matrix by coordinates. -/
abbrev matOf (W : (⟨S768x64, .f32⟩ : BufTy).Contents (Elt Ideal)) : Fin 768 → Fin 64 → EReal := fun d h => W (ix2 d h)

/-- A bias by its coordinate. -/
abbrev vecOf (b : (⟨S64, .f32⟩ : BufTy).Contents (Elt Ideal)) : Fin 64 → EReal := fun h => b (ix1 h)

/-- The first projection at (n, s, h) is x Wq + bq. -/
theorem q_at (n : Fin 32) (s : Fin 1024) (h : Fin 64) :
    val_main_v3 (F := Ideal) x0 x1 x2 (ix3 n s h) = project (rowsOf x0 n) (matOf x1) (vecOf x2) s h := by
  refine (val_main_v3_apply x0 x1 x2 _).trans ?_
  rw [val_main_v0_apply, val_main_v2_apply, val_main_v1_apply]
  refine congrArg₂ (· + ·) (Finset.sum_congr rfl fun k _ => ?_) ?_
  · exact congrArg₂ (· * ·)
      (congrArg x0 (funext fun a => Fin.ext (by match a with | ⟨0, _⟩ => rfl | ⟨1, _⟩ => rfl | ⟨2, _⟩ => rfl)))
      (congrArg x1 (funext fun a => Fin.ext (by match a with | ⟨0, _⟩ => rfl | ⟨1, _⟩ => rfl)))
  · exact congrArg x2 (funext fun a => Fin.ext (by match a with | ⟨0, _⟩ => rfl))

/-- The second projection at (n, s, h) is x Wk + bk. -/
theorem k_at (n : Fin 32) (s : Fin 1024) (h : Fin 64) :
    val_main_v7 (F := Ideal) x0 x3 x4 (ix3 n s h) = project (rowsOf x0 n) (matOf x3) (vecOf x4) s h := by
  refine (val_main_v7_apply x0 x3 x4 _).trans ?_
  rw [val_main_v4_apply, val_main_v6_apply, val_main_v5_apply]
  refine congrArg₂ (· + ·) (Finset.sum_congr rfl fun k _ => ?_) ?_
  · exact congrArg₂ (· * ·)
      (congrArg x0 (funext fun a => Fin.ext (by match a with | ⟨0, _⟩ => rfl | ⟨1, _⟩ => rfl | ⟨2, _⟩ => rfl)))
      (congrArg x3 (funext fun a => Fin.ext (by match a with | ⟨0, _⟩ => rfl | ⟨1, _⟩ => rfl)))
  · exact congrArg x4 (funext fun a => Fin.ext (by match a with | ⟨0, _⟩ => rfl))

/-- The third projection at (n, s, h) is x Wv + bv. -/
theorem v_at (n : Fin 32) (s : Fin 1024) (h : Fin 64) :
    val_main_v11 (F := Ideal) x0 x5 x6 (ix3 n s h) = project (rowsOf x0 n) (matOf x5) (vecOf x6) s h := by
  refine (val_main_v11_apply x0 x5 x6 _).trans ?_
  rw [val_main_v8_apply, val_main_v10_apply, val_main_v9_apply]
  refine congrArg₂ (· + ·) (Finset.sum_congr rfl fun k _ => ?_) ?_
  · exact congrArg₂ (· * ·)
      (congrArg x0 (funext fun a => Fin.ext (by match a with | ⟨0, _⟩ => rfl | ⟨1, _⟩ => rfl | ⟨2, _⟩ => rfl)))
      (congrArg x5 (funext fun a => Fin.ext (by match a with | ⟨0, _⟩ => rfl | ⟨1, _⟩ => rfl)))
  · exact congrArg x6 (funext fun a => Fin.ext (by match a with | ⟨0, _⟩ => rfl))

/-- The scores of batch row n, as the specification writes them. -/
abbrev scoresOf (n : Fin 32) : Fin 1024 → Fin 1024 → EReal :=
  scoreDivided (project (rowsOf x0 n) (matOf x1) (vecOf x2)) (project (rowsOf x0 n) (matOf x3) (vecOf x4))

/-- The divided inner product at (n, s, j) is the score of position s against position j. -/
theorem score_at (n : Fin 32) (s j : Fin 1024) :
    val_main_v14 (F := Ideal) x0 x1 x2 x3 x4 (ix3 n s j) = scoresOf x0 x1 x2 x3 x4 n s j := by
  refine (val_main_v14_apply x0 x1 x2 x3 x4 _).trans ?_
  rw [val_main_v12_apply, val_main_v13_apply, val_main_cst_apply]
  refine congrArg (Ideal.div · divisor) (Finset.sum_congr rfl fun k _ => ?_)
  have el : lidx_main_v12 (ix3 n s j) k = ix3 n s k :=
    funext fun a => Fin.ext (by match a with | ⟨0, _⟩ => rfl | ⟨1, _⟩ => rfl | ⟨2, _⟩ => rfl)
  have er : ridx_main_v12 (ix3 n s j) k = ix3 n j k :=
    funext fun a => Fin.ext (by match a with | ⟨0, _⟩ => rfl | ⟨1, _⟩ => rfl | ⟨2, _⟩ => rfl)
  rw [el, er, q_at, k_at]

/-- The row maximum at (n, s): the fold of max from minus infinity over the row of scores. The further maximum against
    minus infinity is absorbed, minus infinity being below the fold. -/
theorem top_at (n : Fin 32) (s : Fin 1024) :
    val_main_v17 (F := Ideal) x0 x1 x2 x3 x4 (ix2 n s) = rowTop (scoresOf x0 x1 x2 x3 x4 n s) := by
  have hred : S32x1024x1024.Reduces [2] S32x1024 := by decide
  have key := Host.reduce_eq_fold_single (FloatOps.maximumf (F := Ideal) (φ := .f32))
    (val_main_v14 (F := Ideal) x0 x1 x2 x3 x4) (val_main_cst_0 (F := Ideal))
    reducesTo_S32x1024x1024_S32x1024_d2 hred h_S_ (ix2 n s)
  have hfold : val_main_v15 (F := Ideal) x0 x1 x2 x3 x4 (ix2 n s) = rowTop (scoresOf x0 x1 x2 x3 x4 n s) := by
    refine key.trans ?_
    refine Finset.fold_congr fun (j : Fin 1024) _ => ?_
    have e : hred.lift (ix2 n s) j = ix3 n s j :=
      funext fun a => Fin.ext (by match a with | ⟨0, _⟩ => rfl | ⟨1, _⟩ => rfl | ⟨2, _⟩ => rfl)
    show val_main_v14 (F := Ideal) x0 x1 x2 x3 x4 (hred.lift (ix2 n s) j) = _
    rw [e, score_at]
  refine (val_main_v17_apply x0 x1 x2 x3 x4 _).trans ?_
  rw [hfold, val_main_v16_apply, val_main_cst_1_apply]
  have hle : negInf ≤ (Finset.univ : Finset (Fin 1024)).fold max negInf (scoresOf x0 x1 x2 x3 x4 n s) :=
    (Finset.le_fold_max _).mpr (Or.inl le_rfl)
  exact max_eq_right hle

/-- The exponential at (n, s, j): of the score less the row's largest. -/
theorem exp_at (n : Fin 32) (s j : Fin 1024) :
    val_main_v21 (F := Ideal) x0 x1 x2 x3 x4 (ix3 n s j)
      = Ideal.exp (scoresOf x0 x1 x2 x3 x4 n s j - rowTop (scoresOf x0 x1 x2 x3 x4 n s)) := by
  refine (val_main_v21_apply x0 x1 x2 x3 x4 _).trans ?_
  rw [val_main_v20_apply, val_main_v19_apply, val_main_v18_apply]
  have e : idx_main_v18 (idx_main_v19 (ix3 n s j)) = ix2 n s :=
    funext fun a => Fin.ext (by match a with | ⟨0, _⟩ => rfl | ⟨1, _⟩ => rfl)
  rw [e, score_at, top_at]
  rfl

/-- The quotient at (n, s, j) is the softmax weight of entry j of row s. -/
theorem weight_at (n : Fin 32) (s j : Fin 1024) :
    val_main_v25 (F := Ideal) x0 x1 x2 x3 x4 (ix3 n s j) = weight (scoresOf x0 x1 x2 x3 x4 n s) j := by
  refine (val_main_v25_apply x0 x1 x2 x3 x4 _).trans ?_
  rw [val_main_v24_apply, val_main_v23_apply, val_main_v22_apply, val_main_cst_2_apply, exp_at]
  show Ideal.div _ (Ideal.ofBits .f32 0x00000000#32 + _) = _
  rw [Ideal.ofBits_zero_f32, zero_add]
  refine congrArg (Ideal.div _ ·) (Finset.sum_congr rfl fun k _ => ?_)
  have e : idx_main_v22 (idx_main_v23 (idx_main_v24 (ix3 n s j))) k = ix3 n s k :=
    funext fun a => Fin.ext (by match a with | ⟨0, _⟩ => rfl | ⟨1, _⟩ => rfl | ⟨2, _⟩ => rfl)
  rw [e, exp_at]

/-- The reference program's result is the specification's attention of its seven arguments. -/
theorem reference_is_attention
    (x0 : (⟨S32x1024x768, .f32⟩ : BufTy).Contents (Elt Ideal)) (x1 : (⟨S768x64, .f32⟩ : BufTy).Contents (Elt Ideal)) (x2 : (⟨S64, .f32⟩ : BufTy).Contents (Elt Ideal))
    (x3 : (⟨S768x64, .f32⟩ : BufTy).Contents (Elt Ideal)) (x4 : (⟨S64, .f32⟩ : BufTy).Contents (Elt Ideal))
    (x5 : (⟨S768x64, .f32⟩ : BufTy).Contents (Elt Ideal)) (x6 : (⟨S64, .f32⟩ : BufTy).Contents (Elt Ideal)) :
    Cert.ReferenceIdeal.Read.val_main_v26 (F := Ideal) x0 x1 x2 x3 x4 x5 x6 = Cert.Attention.result x0 x1 x2 x3 x4 x5 x6 := by
  funext i
  obtain ⟨n, s, h, rfl⟩ : ∃ (n : Fin 32) (s : Fin 1024) (h : Fin 64), i = ix3 n s h := ⟨i 0, i 1, i 2, eq_ix3 i⟩
  refine (val_main_v26_apply x0 x1 x2 x3 x4 x5 x6 _).trans ?_
  show _ = mix (scoresOf x0 x1 x2 x3 x4 n) (project (rowsOf x0 n) (matOf x5) (vecOf x6)) s h
  unfold mix
  refine Finset.sum_congr rfl fun k _ => ?_
  have el : lidx_main_v26 (ix3 n s h) k = ix3 n s k :=
    funext fun a => Fin.ext (by match a with | ⟨0, _⟩ => rfl | ⟨1, _⟩ => rfl | ⟨2, _⟩ => rfl)
  have er : ridx_main_v26 (ix3 n s h) k = ix3 n k h :=
    funext fun a => Fin.ext (by match a with | ⟨0, _⟩ => rfl | ⟨1, _⟩ => rfl | ⟨2, _⟩ => rfl)
  rw [el, er, weight_at, v_at]

end Cert.ReferenceIdeal.Attn

end
-- ==== Proof.lean ====
/-
  Single-head attention, fused in one kernel, against its plain reference: the certificate's five claims.

  The kernel lays the three projection matrices side by side and the three biases end to end, and on a grid of 32
  points (one batch row each) computes q, k, v by one matrix product, scales q by 1/768, takes the scores q kᵀ, a
  row softmax (subtract the row maximum, exponentiate, divide by the row sum), and the weighted sum of the value
  rows. The reference computes the three projections separately, divides the scores q kᵀ by 768, and takes the same
  softmax and weighted sum for all batch rows at once.

  Frames: the kernel's launch runs to the end, faults nowhere and returns the arguments as found, at the word-level
  values and at the ideal ones (Proof/RegionBits.lean, Proof/RegionIdeal.lean: the host lines before the region write
  none of the arguments; the body is one load-compute-store on whole buffers); the reference's frame is its run with
  the result dropped. The idealization names one constant, the folded factor, as 1/768: its rule's statement.
  Values: at the ideal values the kernel's result array is the attention of the seven arguments
  (Proof/KernelValue.lean, over the body's arithmetic at an index, Proof/BodyValue.lean) and so is the reference's
  result (Proof/ReferenceValue.lean), both in the spelling of Proof/AttentionSpec.lean; the one law between them,
  that a nonnegative real factor moves across a finite sum of extended reals, needs no finiteness of the inputs.
-/
import proofs.«169789_j73899207295044_2_alg».proof.Defs
import proofs.«169789_j73899207295044_2_alg».proof.Proof.Gen.Kernel
import proofs.«169789_j73899207295044_2_alg».proof.Proof.Gen.KernelIdeal
import proofs.«169789_j73899207295044_2_alg».proof.Proof.Gen.ReferenceIdeal
import proofs.«169789_j73899207295044_2_alg».proof.Proof.Gen.Pre_finite_inputs
import proofs.«169789_j73899207295044_2_alg».proof.Proof.Gen.ReferenceIdeal.Run
import proofs.«169789_j73899207295044_2_alg».proof.Proof.Gen.ReferenceIdeal.Read
import proofs.«169789_j73899207295044_2_alg».proof.Proof.RegionBits
import proofs.«169789_j73899207295044_2_alg».proof.Proof.RegionIdeal
import proofs.«169789_j73899207295044_2_alg».proof.Proof.KernelValue
import proofs.«169789_j73899207295044_2_alg».proof.Proof.ReferenceValue
import Idealize.ShloMosaic.PureOps.IdealRules
import Idealize.ShloMosaic.Adequacy
import Idealize.ShloMosaic.Init

noncomputable section

namespace Cert.Proof

open Idealize.ShloMosaic Idealize.SL.Sem

theorem frame_kernel : Cert.frame_Kernel := fun m ρ _ => Cert.Kernel.Region.frame m ρ

theorem frame_ideal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the folded factor is named 1/768, which is what the table gives it. -/
theorem preserves : Cert.preserves_Kernel_KernelIdeal :=
  IdealRules.named_const.statement Cert.KernelIdeal.κ "inv_768" .f32 0x3AAAAAAB#32 ((1 / 768 : ℝ) : EReal) rfl

/-- Both programs end with the attention of the arguments; the arguments agree, so the results do. -/
theorem algebraic : Cert.algebraic_KernelIdeal_ReferenceIdeal := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.Attn.reference_is_attention]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
